-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x200x1024 : Shape := ⟨3, ![256, 200, 1024]⟩
abbrev S50x1024 : Shape := ⟨2, ![50, 1024]⟩
abbrev S1x200x1024 : Shape := ⟨3, ![1, 200, 1024]⟩
abbrev S1024x2048 : Shape := ⟨2, ![1024, 2048]⟩
abbrev S1024 : Shape := ⟨1, ![1024]⟩
abbrev S_ : Shape := ⟨0, ![]⟩

class Facts : Prop where
  bcast_S_S256x200x1024 : S_.BroadcastsInDim S256x200x1024 (![] : Fin 0 → Fin S256x200x1024.rank)
  reducesTo_S256x200x1024_S_d0_1_2 : S256x200x1024.ReducesTo [0, 1, 2] S_
  h_S_ : 0 < S_.numel
  bcast_S_S50x1024 : S_.BroadcastsInDim S50x1024 (![] : Fin 0 → Fin S50x1024.rank)
  reducesTo_S50x1024_S_d0_1 : S50x1024.ReducesTo [0, 1] S_
  bcast_S_S1x200x1024 : S_.BroadcastsInDim S1x200x1024 (![] : Fin 0 → Fin S1x200x1024.rank)
  reducesTo_S1x200x1024_S_d0_1_2 : S1x200x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S256x200x1024 .f32) (main_arg1 : FVec F S50x1024 .f32) (main_arg2 : FVec F S1x200x1024 .f32) (main_arg3 : FVec F S1024x2048 .f32) (main_arg4 : FVec F S1024 .f32) : IVec S_ 1 :=
  let main_v0 : FVec F S256x200x1024 .f32 := Host.absf main_arg0
  let main_cst : FVec F S_ .f32 := constant S_ .f32 0x7F800000#32
  let main_v1 : FVec F S256x200x1024 .f32 := broadcastInDim S256x200x1024 ![] bcast_S_S256x200x1024 main_cst
  let main_v2 : IVec S256x200x1024 1 := cmpf .olt main_v0 main_v1
  let main_c : IVec S_ 1 := constantI S_ 1 1#1
  let main_v3 : IVec S_ 1 := (fun x v => Host.reduce IntOp.andi x v reducesTo_S256x200x1024_S_d0_1_2 h_S_) main_v2 main_c
  let main_v4 : FVec F S50x1024 .f32 := Host.absf main_arg1
  let main_cst_0 : FVec F S_ .f32 := constant S_ .f32 0x7F800000#32
  let main_v5 : FVec F S50x1024 .f32 := broadcastInDim S50x1024 ![] bcast_S_S50x1024 main_cst_0
  let main_v6 : IVec S50x1024 1 := cmpf .olt main_v4 main_v5
  let main_c_1 : IVec S_ 1 := constantI S_ 1 1#1
  let main_v7 : IVec S_ 1 := (fun x v => Host.reduce IntOp.andi x v reducesTo_S50x1024_S_d0_1 h_S_) main_v6 main_c_1
  let main_v8 : IVec S_ 1 := andi main_v3 main_v7
  let main_v9 : FVec F S1x200x1024 .f32 := Host.absf main_arg2
  let main_cst_2 : FVec F S_ .f32 := constant S_ .f32 0x7F800000#32
  let main_v10 : FVec F S1x200x1024 .f32 := broadcastInDim S1x200x1024 ![] bcast_S_S1x200x1024 main_cst_2
  let main_v11 : IVec S1x200x1024 1 := cmpf .olt main_v9 main_v10
  let main_c_3 : IVec S_ 1 := constantI S_ 1 1#1
  let main_v12 : IVec S_ 1 := (fun x v => Host.reduce IntOp.andi x v reducesTo_S1x200x1024_S_d0_1_2 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_v13 main_v16
-- ==== Kernel.lean ====
abbrev S256x200x1024 : Shape := ⟨3, ![256, 200, 1024]⟩
abbrev S50x1024 : Shape := ⟨2, ![50, 1024]⟩
abbrev S1x200x1024 : Shape := ⟨3, ![1, 200, 1024]⟩
abbrev S1024x2048 : Shape := ⟨2, ![1024, 2048]⟩
abbrev S1024 : Shape := ⟨1, ![1024]⟩
abbrev S1024x50 : Shape := ⟨2, ![1024, 50]⟩
abbrev S1024x1024 : Shape := ⟨2, ![1024, 1024]⟩
abbrev S4x200x1024 : Shape := ⟨3, ![4, 200, 1024]⟩
abbrev S800x1024 : Shape := ⟨2, ![800, 1024]⟩
abbrev S800x50 : Shape := ⟨2, ![800, 50]⟩
abbrev S800 : Shape := ⟨1, ![800]⟩
abbrev S800x1 : Shape := ⟨2, ![800, 1]⟩
abbrev S1x1024 : Shape := ⟨2, ![1, 1024]⟩

abbrev nBuf : Space → Nat
  | .hbm => 15
  | .vmem => 10
  | .smem => 0
  | _ => 0

abbrev bufTy : (tb : Table) → Fin (tcTables nBuf tb) → BufTy
  | .hbm, ⟨0, _⟩ => ⟨S256x200x1024, .f32⟩
  | .hbm, ⟨1, _⟩ => ⟨S50x1024, .f32⟩
  | .hbm, ⟨2, _⟩ => ⟨S1x200x1024, .f32⟩
  | .hbm, ⟨3, _⟩ => ⟨S1024x2048, .f32⟩
  | .hbm, ⟨4, _⟩ => ⟨S1024, .f32⟩
  | .hbm, ⟨5, _⟩ => ⟨S50x1024, .bf16⟩
  | .hbm, ⟨6, _⟩ => ⟨S1024x50, .f32⟩
  | .hbm, ⟨7, _⟩ => ⟨S1024x50, .bf16⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S256x200x1024, .f32⟩
  | .local _ .vmem, ⟨0, _⟩ => ⟨S4x200x1024, .f32⟩
  | .local _ .vmem, ⟨1, _⟩ => ⟨S4x200x1024, .f32⟩
  | .local _ .vmem, ⟨2, _⟩ => ⟨S1x200x1024, .f32⟩
  | .local _ .vmem, ⟨3, _⟩ => ⟨S50x1024, .bf16⟩
  | .local _ .vmem, ⟨4, _⟩ => ⟨S1024x50, .bf16⟩
  | .local _ .vmem, ⟨5, _⟩ => ⟨S1024x1024, .bf16⟩
  | .local _ .vmem, ⟨6, _⟩ => ⟨S1024x1024, .bf16⟩
  | .local _ .vmem, ⟨7, _⟩ => ⟨S1024, .f32⟩
  | .local _ .vmem, ⟨8, _⟩ => ⟨S4x200x1024, .f32⟩
  | .local _ .vmem, ⟨9, _⟩ => ⟨S4x200x1024, .f32⟩
  | _, _ => ⟨S256x200x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x200x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x200x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x200x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  transposes_S50x1024_S1024x50_1_0 : S50x1024.Transposes [1, 0] S1024x50
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  inb_S4x200x1024_S4x200x1024_0_0_0 : ∀ a, (![0, 0, 0] : Fin 3 → Nat) a + S4x200x1024.size a ≤ S4x200x1024.size a
  h_S4x200x1024 : 0 < S4x200x1024.numel
  inb_S1x200x1024_S1x200x1024_0_0_0 : ∀ a, (![0, 0, 0] : Fin 3 → Nat) a + S1x200x1024.size a ≤ S1x200x1024.size a
  h_S1x200x1024 : 0 < S1x200x1024.numel
  broadcasts_S1x200x1024_S4x200x1024 : S1x200x1024.Broadcasts S4x200x1024
  shapeCasts_S4x200x1024_S800x1024 : S4x200x1024.ShapeCasts S800x1024
  inb_S50x1024_S50x1024_0_0 : ∀ a, (![0, 0] : Fin 2 → Nat) a + S50x1024.size a ≤ S50x1024.size a
  h_S50x1024 : 0 < S50x1024.numel
  shapeCasts_S50x1024_S50x1024 : S50x1024.ShapeCasts S50x1024
  inb_S1024x50_S1024x50_0_0 : ∀ a, (![0, 0] : Fin 2 → Nat) a + S1024x50.size a ≤ S1024x50.size a
  h_S1024x50 : 0 < S1024x50.numel
  shapeCasts_S1024x50_S1024x50 : S1024x50.ShapeCasts S1024x50
  reduces_S800x50_S800 : S800x50.Reduces [1] S800
  shapeCasts_S800_S800x1 : S800.ShapeCasts S800x1
  broadcasts_S800x1_S800x50 : S800x1.Broadcasts S800x50
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S800x1024 : S1x1024.Broadcasts S800x1024
  shapeCasts_S800x1024_S4x200x1024 : S800x1024.ShapeCasts S4x200x1024
  dot_S800x1024_S1024x50_S800x50_1_0_0_1_n_n_wf : DotDims.WF S800x1024 S1024x50 S800x50 [1] [0] [0] [1] [] []
  dot_S800x50_S50x1024_S800x1024_1_0_0_1_n_n_wf : DotDims.WF S800x50 S50x1024 S800x1024 [1] [0] [0] [1] [] []
  dot_S800x1024_S1024x1024_S800x1024_1_0_0_1_n_n_wf : DotDims.WF S800x1024 S1024x1024 S800x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x200x1024.size a ≤ S256x200x1024.size a
  hwx0_0 : ∀ i : grid0.Coords, EltTy.bits .f32 = 32 ∨ (Rect.block (s := S256x200x1024) S4x200x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x200x1024.size a ≤ S1x200x1024.size a
  hwx0_1 : ∀ i : grid0.Coords, EltTy.bits .f32 = 32 ∨ (Rect.block (s := S1x200x1024) S1x200x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x1024.size a ≤ S50x1024.size a
  hwx0_2 : ∀ i : grid0.Coords, EltTy.bits .bf16 = 32 ∨ (Rect.block (s := S50x1024) S50x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x50.size a ≤ S1024x50.size a
  hwx0_3 : ∀ i : grid0.Coords, EltTy.bits .bf16 = 32 ∨ (Rect.block (s := S1024x50) S1024x50.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x200x1024.size a ≤ S256x200x1024.size a
  hwx0_7 : ∀ i : grid0.Coords, EltTy.bits .f32 = 32 ∨ (Rect.block (s := S256x200x1024) S4x200x1024.size (cc0_transform_7 i) (hinb0_7 i)).WholeWords (EltTy.packing .f32)

variable [Facts₀]

def dot_S800x1024_S1024x50_S800x50_1_0_0_1_n_n : DotDims S800x1024 S1024x50 S800x50 where
  lhsContracting := [1]
  rhsContracting := [0]
  lhsNonContracting := [0]
  rhsNonContracting := [1]
  lhsBatch := []
  rhsBatch := []
  wf := dot_S800x1024_S1024x50_S800x50_1_0_0_1_n_n_wf
def dot_S800x50_S50x1024_S800x1024_1_0_0_1_n_n : DotDims S800x50 S50x1024 S800x1024 where
  lhsContracting := [1]
  rhsContracting := [0]
  lhsNonContracting := [0]
  rhsNonContracting := [1]
  lhsBatch := []
  rhsBatch := []
  wf := dot_S800x50_S50x1024_S800x1024_1_0_0_1_n_n_wf
def dot_S800x1024_S1024x1024_S800x1024_1_0_0_1_n_n : DotDims S800x1024 S1024x1024 S800x1024 where
  lhsContracting := [1]
  rhsContracting := [0]
  lhsNonContracting := [0]
  rhsNonContracting := [1]
  lhsBatch := []
  rhsBatch := []
  wf := dot_S800x1024_S1024x1024_S800x1024_1_0_0_1_n_n_wf

abbrev win0_0 : Pipeline.Window sig grid0 :=
  Pipeline.Window.ofSpec (Memref.whole main_arg0) S4x200x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x200x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S50x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4x200x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x200x1024 : Shape := ⟨3, ![256, 200, 1024]⟩
abbrev S50x1024 : Shape := ⟨2, ![50, 1024]⟩
abbrev S1x200x1024 : Shape := ⟨3, ![1, 200, 1024]⟩
abbrev S1024x2048 : Shape := ⟨2, ![1024, 2048]⟩
abbrev S1024 : Shape := ⟨1, ![1024]⟩
abbrev S256x200x50 : Shape := ⟨3, ![256, 200, 50]⟩
abbrev S_ : Shape := ⟨0, ![]⟩
abbrev S256x200 : Shape := ⟨2, ![256, 200]⟩
abbrev S256x200x1 : Shape := ⟨3, ![256, 200, 1]⟩
abbrev S1024x1024 : Shape := ⟨2, ![1024, 1024]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S256x200x1024, .f32⟩
  | .hbm, ⟨1, _⟩ => ⟨S50x1024, .f32⟩
  | .hbm, ⟨2, _⟩ => ⟨S1x200x1024, .f32⟩
  | .hbm, ⟨3, _⟩ => ⟨S1024x2048, .f32⟩
  | .hbm, ⟨4, _⟩ => ⟨S1024, .f32⟩
  | .hbm, ⟨5, _⟩ => ⟨S256x200x1024, .f32⟩
  | .hbm, ⟨6, _⟩ => ⟨S256x200x1024, .f32⟩
  | .hbm, ⟨7, _⟩ => ⟨S256x200x50, .f32⟩
  | .hbm, ⟨8, _⟩ => ⟨S_, .f32⟩
  | .hbm, ⟨9, _⟩ => ⟨S256x200, .f32⟩
  | .hbm, ⟨10, _⟩ => ⟨S_, .f32⟩
  | .hbm, ⟨11, _⟩ => ⟨S256x200, .f32⟩
  | .hbm, ⟨12, _⟩ => ⟨S256x200, .f32⟩
  | .hbm, ⟨13, _⟩ => ⟨S256x200x1, .f32⟩
  | .hbm, ⟨14, _⟩ => ⟨S256x200x50, .f32⟩
  | .hbm, ⟨15, _⟩ => ⟨S256x200x50, .f32⟩
  | .hbm, ⟨16, _⟩ => ⟨S256x200x50, .f32⟩
  | .hbm, ⟨17, _⟩ => ⟨S_, .f32⟩
  | .hbm, ⟨18, _⟩ => ⟨S256x200, .f32⟩
  | .hbm, ⟨19, _⟩ => ⟨S256x200x1, .f32⟩
  | .hbm, ⟨20, _⟩ => ⟨S256x200x50, .f32⟩
  | .hbm, ⟨21, _⟩ => ⟨S256x200x50, .f32⟩
  | .hbm, ⟨22, _⟩ => ⟨S256x200x1024, .f32⟩
  | .hbm, ⟨23, _⟩ => ⟨S1024x1024, .f32⟩
  | .hbm, ⟨24, _⟩ => ⟨S1024x1024, .f32⟩
  | .hbm, ⟨25, _⟩ => ⟨S256x200x1024, .f32⟩
  | .hbm, ⟨26, _⟩ => ⟨S256x200x1024, .f32⟩
  | .hbm, ⟨27, _⟩ => ⟨S256x200x1024, .f32⟩
  | .hbm, ⟨28, _⟩ => ⟨S1x1x1024, .f32⟩
  | .hbm, ⟨29, _⟩ => ⟨S256x200x1024, .f32⟩
  | .hbm, ⟨30, _⟩ => ⟨S256x200x1024, .f32⟩
  | .hbm, ⟨31, _⟩ => ⟨S256x200x1024, .f32⟩
  | .hbm, ⟨32, _⟩ => ⟨S256x200x1024, .f32⟩
  | .hbm, ⟨33, _⟩ => ⟨S_, .f32⟩
  | .hbm, ⟨34, _⟩ => ⟨S256x200x1024, .f32⟩
  | .hbm, ⟨35, _⟩ => ⟨S256x200x1024, .f32⟩
  | .hbm, ⟨36, _⟩ => ⟨S_, .f32⟩
  | .hbm, ⟨37, _⟩ => ⟨S256x200x1024, .f32⟩
  | .hbm, ⟨38, _⟩ => ⟨S256x200x1024, .f32⟩
  | .hbm, ⟨39, _⟩ => ⟨S256x200x1024, .f32⟩
  | .hbm, ⟨40, _⟩ => ⟨S256x200x1024, .f32⟩
  | _, _ => ⟨S256x200x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S1x200x1024_S256x200x1024_0_1_2 : S1x200x1024.BroadcastsInDim S256x200x1024 (![0, 1, 2] : Fin 3 → Fin S256x200x1024.rank)
  reducesTo_S256x200x50_S256x200_d2 : S256x200x50.ReducesTo [2] S256x200
  h_S_ : 0 < S_.numel
  bcast_S_S256x200 : S_.BroadcastsInDim S256x200 (![] : Fin 0 → Fin S256x200.rank)
  bcast_S256x200_S256x200x1_0_1 : S256x200.BroadcastsInDim S256x200x1 (![0, 1] : Fin 2 → Fin S256x200x1.rank)
  bcast_S256x200x1_S256x200x50_0_1_2 : S256x200x1.BroadcastsInDim S256x200x50 (![0, 1, 2] : Fin 3 → Fin S256x200x50.rank)
  slices_S1024x2048_S1024x1024_0_0 : S1024x2048.Slices ![0, 0] S1024x1024
  slices_S1024x2048_S1024x1024_0_1024 : S1024x2048.Slices ![0, 1024] S1024x1024
  bcast_S1024_S1x1x1024_2 : S1024.BroadcastsInDim S1x1x1024 (![2] : Fin 1 → Fin S1x1x1024.rank)
  bcast_S1x1x1024_S256x200x1024_0_1_2 : S1x1x1024.BroadcastsInDim S256x200x1024 (![0, 1, 2] : Fin 3 → Fin S256x200x1024.rank)
  bcast_S_S256x200x1024 : S_.BroadcastsInDim S256x200x1024 (![] : Fin 0 → Fin S256x200x1024.rank)
  dot_S256x200x1024_S50x1024_S256x200x50_2_1_01_0_n_n_wf : DotDims.WF S256x200x1024 S50x1024 S256x200x50 [2] [1] [0, 1] [0] [] []
  dot_S256x200x50_S50x1024_S256x200x1024_2_0_01_1_n_n_wf : DotDims.WF S256x200x50 S50x1024 S256x200x1024 [2] [0] [0, 1] [1] [] []
  dot_S256x200x1024_S1024x1024_S256x200x1024_2_1_01_0_n_n_wf : DotDims.WF S256x200x1024 S1024x1024 S256x200x1024 [2] [1] [0, 1] [0] [] []

variable [Facts₀]

def dot_S256x200x1024_S50x1024_S256x200x50_2_1_01_0_n_n : DotDims S256x200x1024 S50x1024 S256x200x50 where
  lhsContracting := [2]
  rhsContracting := [1]
  lhsNonContracting := [0, 1]
  rhsNonContracting := [0]
  lhsBatch := []
  rhsBatch := []
  wf := dot_S256x200x1024_S50x1024_S256x200x50_2_1_01_0_n_n_wf
def dot_S256x200x50_S50x1024_S256x200x1024_2_0_01_1_n_n : DotDims S256x200x50 S50x1024 S256x200x1024 where
  lhsContracting := [2]
  rhsContracting := [0]
  lhsNonContracting := [0, 1]
  rhsNonContracting := [1]
  lhsBatch := []
  rhsBatch := []
  wf := dot_S256x200x50_S50x1024_S256x200x1024_2_0_01_1_n_n_wf
def dot_S256x200x1024_S1024x1024_S256x200x1024_2_1_01_0_n_n : DotDims S256x200x1024 S1024x1024 S256x200x1024 where
  lhsContracting := [2]
  rhsContracting := [1]
  lhsNonContracting := [0, 1]
  rhsNonContracting := [0]
  lhsBatch := []
  rhsBatch := []
  wf := dot_S256x200x1024_S1024x1024_S256x200x1024_2_1_01_0_n_n_wf

class Facts : Prop extends Facts₀ where

variable [Facts]
-- ==== Proof.Row.lean ====
/-
  One row of a gated read from a small memory bank, on the extended reals.

  A feature row `f` (1024 numbers) is scored against each of the 50 memory rows, `score m = ∑ k, f k · mem m k`; the
  scores are turned into shares by a softmax taken from their largest value (`peak`): `weight m = exp (score m − peak)`,
  `mass = ∑ m, weight m`, `share m = weight m / mass`; the read-out is the shares' mix of the memory rows,
  `readout h = ∑ m, share m · mem m h`; a gate per output position is the logistic of two linear maps of the row and of
  the read-out plus a bias; and the row leaves as `f h + gate h · readout h`.

  The whole array is this row function applied at every (batch, position): the row at (b, s) is the input row plus the
  position row, `x (b, s, ·) + pos (0, s, ·)`; the two linear maps are the left and right halves of one 1024 × 2048 weight.
-/
import Idealize.ShloMosaic.PureOps.Ideal
import Idealize.ShloMosaic.Lib.ValueIdx

noncomputable section

namespace Cert.MemoryGate

open Idealize.ShloMosaic Idealize.ShloMosaic.ValueIdx

/-- The float word of −∞, from which both maxima start. -/
abbrev negInf : EReal := Ideal.ofBits .f32 0xFF800000#32

section Row

variable (f : Fin 1024 → EReal) (mem : Fin 50 → Fin 1024 → EReal) (wf wm : Fin 1024 → Fin 1024 → EReal)
  (gb : Fin 1024 → EReal)

/-- The row's score against memory row `m`. -/
def score (m : Fin 50) : EReal := ∑ k : Fin 1024, f k * mem m k

/-- The largest score (a maximum started from −∞, and once more compared with −∞). -/
def peak : EReal := max negInf ((Finset.univ : Finset (Fin 50)).fold max negInf (score f mem))

/-- The exponential of a score's distance below the peak. -/
def weight (m : Fin 50) : EReal := Ideal.exp (score f mem m - peak f mem)

/-- The weights' sum. -/
def mass : EReal := ∑ m : Fin 50, weight f mem m

/-- Memory row `m`'s share of the read-out. -/
def share (m : Fin 50) : EReal := Ideal.div (weight f mem m) (mass f mem)

/-- The read-out: the memory rows mixed by their shares. -/
def readout (h : Fin 1024) : EReal := ∑ m : Fin 50, share f mem m * mem m h

/-- The gate at output position `o`. -/
def gate (o : Fin 1024) : EReal :=
  Ideal.logistic ((∑ k : Fin 1024, f k * wf o k + ∑ k : Fin 1024, readout f mem k * wm o k) + gb o)

/-- The row as it leaves. -/
def rowOut (h : Fin 1024) : EReal := f h + gate f mem wf wm gb h * readout f mem h

end Row

/-! ## The whole array -/

/-- The feature row at (b, s): the input row plus the position row. -/
def feat (x : (⟨3, ![256, 200, 1024]⟩ : Shape).Idx → EReal) (pos : (⟨3, ![1, 200, 1024]⟩ : Shape).Idx → EReal)
    (b : Fin 256) (s : Fin 200) : Fin 1024 → EReal :=
  fun k => x (ix3 b s k) + pos (ix3 (0 : Fin 1) s k)

/-- The memory bank by rows. -/
def memRows (mem : (⟨2, ![50, 1024]⟩ : Shape).Idx → EReal) : Fin 50 → Fin 1024 → EReal := fun m k => mem (ix2 m k)

/-- The left half of the gate's weight: the map applied to the feature row. -/
def gateLeft (gw : (⟨2, ![1024, 2048]⟩ : Shape).Idx → EReal) : Fin 1024 → Fin 1024 → EReal :=
  fun o k => gw (ix2 o (⟨k.val, by have := k.isLt; omega⟩ : Fin 2048))

/-- The right half: the map applied to the read-out. -/
def gateRight (gw : (⟨2, ![1024, 2048]⟩ : Shape).Idx → EReal) : Fin 1024 → Fin 1024 → EReal :=
  fun o k => gw (ix2 o (⟨1024 + k.val, by have := k.isLt; omega⟩ : Fin 2048))

/-- The gate's bias. -/
def bias (gb : (⟨1, ![1024]⟩ : Shape).Idx → EReal) : Fin 1024 → EReal := fun o => gb (ix1 o)

/-- The result array as ONE function of the five argument arrays, read at (b, s, h). -/
def result (x : (⟨3, ![256, 200, 1024]⟩ : Shape).Idx → EReal) (mem : (⟨2, ![50, 1024]⟩ : Shape).Idx → EReal)
    (pos : (⟨3, ![1, 200, 1024]⟩ : Shape).Idx → EReal) (gw : (⟨2, ![1024, 2048]⟩ : Shape).Idx → EReal)
    (gb : (⟨1, ![1024]⟩ : Shape).Idx → EReal) : (⟨3, ![256, 200, 1024]⟩ : Shape).Idx → EReal :=
  fun i => rowOut (feat x pos (i 0) (i 1)) (memRows mem) (gateLeft gw) (gateRight gw) (bias gb) (i 2)

theorem result_ix3 (x : (⟨3, ![256, 200, 1024]⟩ : Shape).Idx → EReal) (mem : (⟨2, ![50, 1024]⟩ : Shape).Idx → EReal)
    (pos : (⟨3, ![1, 200, 1024]⟩ : Shape).Idx → EReal) (gw : (⟨2, ![1024, 2048]⟩ : Shape).Idx → EReal)
    (gb : (⟨1, ![1024]⟩ : Shape).Idx → EReal) (b : Fin 256) (s : Fin 200) (h : Fin 1024) :
    result x mem pos gw gb (ix3 b s h)
      = rowOut (feat x pos b s) (memRows mem) (gateLeft gw) (gateRight gw) (bias gb) h := rfl

end Cert.MemoryGate

end
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelRow.lean ====
/-
  The kernel body's arithmetic, read one row at a time at the ideal values.

  The body works on a block of 4 × 200 rows flattened to 800 rows of 1024: row `r = b · 200 + s` is batch `b`, position
  `s` of the block. Each of its matrix products is a plain product into zero, so an entry is a sum over the contracted
  axis; its softmax is a row maximum, a row sum and a quotient, each kept as a column and laid back along the 50
  columns. Read at row `r`, the score matrix is `score`, the row maximum `peak`, the exponentials `weight`, their sum
  `mass`, the quotients `share`, the second product `readout`, the logistic of the two gate products plus the bias
  `gate`, and the stored value `rowOut` — for whatever row function, memory, gate weights and bias the body's seven
  operands hold at that row (the hypotheses `hf`, `hmem`, `hmemT`, `hwf`, `hwm`, `hgb`).
-/
import proofs.«110708_j83872121357101_1_alg».proof.Proof.Gen.KernelIdeal.Skeleton
import proofs.«110708_j83872121357101_1_alg».proof.Proof.Row
import proofs.«110708_j83872121357101_1_alg».proof.Proof.LibPlainMatmul
import proofs.«110708_j83872121357101_1_alg».proof.Proof.LibKeepdims
import Idealize.ShloMosaic.Lib.ValueIdx
import Idealize.ShloMosaic.Lib.Pipeline.Value
import Idealize.ShloMosaic.PureOps.Ideal.Laws

noncomputable section

namespace Cert.MemoryGate.Kernel

open Idealize.ShloMosaic Idealize.ShloMosaic.ValueIdx Cert.KernelIdeal Cert.KernelIdeal.Gen Cert.MemoryGate

/-! ## The softmax of a score matrix, row by row -/

/-- Row `r` of the 800 × 50 matrix with column `m` put back is (r, m). -/
theorem lift_row (h : S800x50.Reduces [1] S800) (r : Fin 800) (m : Fin 50) : h.lift (ix1 r) m = ix2 r m := by
  funext a; apply Fin.ext
  match a with
  | ⟨0, _⟩ => rfl
  | ⟨1, _⟩ => rfl

/-- Each row's maximum, started from −∞ and compared with −∞ once more. -/
def rowMax (v : FVec Ideal S800x50 .f32) : FVec Ideal S800 .f32 :=
  maximumf (broadcast S800 (Scalar.ofBits .f32 0xFF800000#32))
    (multiReduction .maximumf [1] S800 v 0xFF800000#32 reduces_S800x50_S800 (.inl rfl) rfl)

theorem rowMax_apply (v : FVec Ideal S800x50 .f32) (r : Fin 800) :
    rowMax v (ix1 r) = max negInf ((Finset.univ : Finset (Fin 50)).fold max negInf fun m => v (ix2 r m)) := by
  have e : (v ∘ reduces_S800x50_S800.lift (ix1 r)) = fun m : Fin 50 => v (ix2 r m) :=
    funext fun m => congrArg v (lift_row _ r m)
  exact congrArg (max negInf)
    ((Ideal.multiReduction_maximumf_single v 0xFF800000#32 reduces_S800x50_S800 (.inl rfl) rfl (ix1 r)).trans
      (congrArg (fun g : Fin 50 → EReal => (Finset.univ : Finset (Fin 50)).fold max negInf g) e))

/-- The exponentials of the scores' distances below their row's maximum. -/
def expd (v : FVec Ideal S800x50 .f32) : FVec Ideal S800x50 .f32 :=
  exp (subf v (broadcastTo S800x50 (shapeCast S800x1 (rowMax v) shapeCasts_S800_S800x1) broadcasts_S800x1_S800x50))

theorem expd_apply (v : FVec Ideal S800x50 .f32) (r : Fin 800) (m : Fin 50) :
    expd v (ix2 r m) = Ideal.exp (v (ix2 r m) - rowMax v (ix1 r)) := by
  show Ideal.exp (v (ix2 r m) - broadcastTo S800x50 (shapeCast S800x1 (rowMax v) shapeCasts_S800_S800x1) broadcasts_S800x1_S800x50 (ix2 r m)) = _
  rw [Keepdims.broadcastTo_a1_ab_apply, Keepdims.shapeCast_a_a1_apply]

/-- Each row's sum. -/
def rowSum (e : FVec Ideal S800x50 .f32) : FVec Ideal S800 .f32 :=
  multiReduction .add [1] S800 e 0x00000000#32 reduces_S800x50_S800 (.inl rfl) rfl

theorem rowSum_apply (e : FVec Ideal S800x50 .f32) (r : Fin 800) : rowSum e (ix1 r) = ∑ m : Fin 50, e (ix2 r m) := by
  exact (Ideal.multiReduction_add_single e 0x00000000#32 reduces_S800x50_S800 (.inl rfl) rfl (ix1 r)).trans
    (Finset.sum_congr rfl fun m _ => congrArg e (lift_row _ r m))

/-- The exponentials over their row's sum. -/
def probs (v : FVec Ideal S800x50 .f32) : FVec Ideal S800x50 .f32 :=
  divf (expd v) (broadcastTo S800x50 (shapeCast S800x1 (rowSum (expd v)) shapeCasts_S800_S800x1) broadcasts_S800x1_S800x50)

theorem probs_apply (v : FVec Ideal S800x50 .f32) (r : Fin 800) (m : Fin 50) :
    probs v (ix2 r m) = Ideal.div (expd v (ix2 r m)) (rowSum (expd v) (ix1 r)) := by
  show Ideal.div (expd v (ix2 r m)) (broadcastTo S800x50 (shapeCast S800x1 (rowSum (expd v)) shapeCasts_S800_S800x1) broadcasts_S800x1_S800x50 (ix2 r m)) = _
  rw [Keepdims.broadcastTo_a1_ab_apply, Keepdims.shapeCast_a_a1_apply]

section RowSoftmax

variable (v : FVec Ideal S800x50 .f32) (r : Fin 800) (f : Fin 1024 → EReal) (mem : Fin 50 → Fin 1024 → EReal)
  (hs : ∀ m : Fin 50, v (ix2 r m) = score f mem m)
include hs

/-- Where row `r` of the matrix holds the scores of `f`, its row maximum is their peak, -/
theorem rowMax_eq_peak : rowMax v (ix1 r) = peak f mem := by
  rw [rowMax_apply, show (fun m : Fin 50 => v (ix2 r m)) = score f mem from funext hs]
  rfl

/-- its exponentials their weights, -/
theorem expd_eq_weight (m : Fin 50) : expd v (ix2 r m) = weight f mem m := by
  rw [expd_apply, rowMax_eq_peak v r f mem hs, hs m]
  rfl

/-- its row sum their mass, -/
theorem rowSum_eq_mass : rowSum (expd v) (ix1 r) = mass f mem := by
  rw [rowSum_apply]
  exact Finset.sum_congr rfl fun m _ => expd_eq_weight v r f mem hs m

/-- and its quotients their shares. -/
theorem probs_eq_share (m : Fin 50) : probs v (ix2 r m) = share f mem m := by
  rw [probs_apply, expd_eq_weight v r f mem hs m, rowSum_eq_mass v r f mem hs]
  rfl

end RowSoftmax

/-! ## The three matrix products, read at an entry -/

theorem dotScore_plain : dot_S800x1024_S1024x50_S800x50_1_0_0_1_n_n = DotDims.plain 800 1024 50 := rfl
theorem dotRead_plain : dot_S800x50_S50x1024_S800x1024_1_0_0_1_n_n = DotDims.plain 800 50 1024 := rfl
theorem dotGate_plain : dot_S800x1024_S1024x1024_S800x1024_1_0_0_1_n_n = DotDims.plain 800 1024 1024 := rfl

/-- The rows against the transposed memory: entry (r, m) is a sum over the 1024 features. -/
theorem scoreProduct_apply (A : FVec Ideal S800x1024 .bf16) (B : FVec Ideal S1024x50 .bf16) (r : Fin 800) (m : Fin 50) :
    matmul dot_S800x1024_S1024x50_S800x50_1_0_0_1_n_n none A B (constant S800x50 .f32 0x00000000#32) (ix2 r m)
      = ∑ k : Fin 1024, A (ix2 r k) * B (ix2 k m) := by
  rw [dotScore_plain]
  exact PlainMatmul.matmul_zero_apply 800 1024 50 none A B r m

/-- The shares against the memory: entry (r, h) is a sum over the 50 memory rows. -/
theorem readProduct_apply (A : FVec Ideal S800x50 .bf16) (B : FVec Ideal S50x1024 .bf16) (r : Fin 800) (h : Fin 1024) :
    matmul dot_S800x50_S50x1024_S800x1024_1_0_0_1_n_n none A B (constant S800x1024 .f32 0x00000000#32) (ix2 r h)
      = ∑ m : Fin 50, A (ix2 r m) * B (ix2 m h) := by
  rw [dotRead_plain]
  exact PlainMatmul.matmul_zero_apply 800 50 1024 none A B r h

/-- A gate product: entry (r, o) is a sum over the 1024 features. -/
theorem gateProduct_apply (A : FVec Ideal S800x1024 .bf16) (B : FVec Ideal S1024x1024 .bf16) (r : Fin 800) (o : Fin 1024) :
    matmul dot_S800x1024_S1024x1024_S800x1024_1_0_0_1_n_n none A B (constant S800x1024 .f32 0x00000000#32) (ix2 r o)
      = ∑ k : Fin 1024, A (ix2 r k) * B (ix2 k o) := by
  rw [dotGate_plain]
  exact PlainMatmul.matmul_zero_apply 800 1024 1024 none A B r o

/-! ## The payloads as those pieces -/

variable (P0 : Vec Ideal S4x200x1024 .f32) (P1 : Vec Ideal S1x200x1024 .f32) (P2 : Vec Ideal S50x1024 .bf16)
  (P3 : Vec Ideal S1024x50 .bf16) (P4 : Vec Ideal S1024x1024 .bf16) (P5 : Vec Ideal S1024x1024 .bf16) (P6 : Vec Ideal S1024 .f32)

/-- The score matrix of the block. -/
def scores : FVec Ideal S800x50 .f32 :=
  matmul dot_S800x1024_S1024x50_S800x50_1_0_0_1_n_n none (k0_pay3 P0 P1) (shapeCast S1024x50 P3 shapeCasts_S1024x50_S1024x50 : FVec Ideal S1024x50 .bf16)
    (constant S800x50 .f32 0x00000000#32)

/-- The read-out payload is the second product of the softmax of the scores. -/
theorem pay4_eq : k0_pay4 P0 P1 P2 P3
    = matmul dot_S800x50_S50x1024_S800x1024_1_0_0_1_n_n none (truncf .bf16 (probs (scores P0 P1 P3)) bitsLt_bf16_f32)
        (shapeCast S50x1024 P2 shapeCasts_S50x1024_S50x1024 : FVec Ideal S50x1024 .bf16) (constant S800x1024 .f32 0x00000000#32) := rfl

/-- The gate payload is the logistic of the two gate products plus the bias laid along the rows. -/
theorem pay5_eq : k0_pay5 P0 P1 P2 P3 P4 P5 P6
    = logistic (addf (addf
        (matmul dot_S800x1024_S1024x1024_S800x1024_1_0_0_1_n_n none (k0_pay3 P0 P1) (shapeCast S1024x1024 P4 shapeCasts_S1024x1024_S1024x1024 : FVec Ideal S1024x1024 .bf16) (constant S800x1024 .f32 0x00000000#32))
        (matmul dot_S800x1024_S1024x1024_S800x1024_1_0_0_1_n_n none (truncf .bf16 (k0_pay4 P0 P1 P2 P3) bitsLt_bf16_f32) (shapeCast S1024x1024 P5 shapeCasts_S1024x1024_S1024x1024 : FVec Ideal S1024x1024 .bf16) (constant S800x1024 .f32 0x00000000#32)))
        (broadcastTo S800x1024 (shapeCast S1x1024 P6 shapeCasts_S1024_S1x1024 : FVec Ideal S1x1024 .f32) broadcasts_S1x1024_S800x1024)) := rfl

/-- The flattened feature block. -/
theorem pay2_eq : k0_pay2 P0 P1
    = shapeCast S800x1024 (addf P0 (broadcastTo S4x200x1024 P1 broadcasts_S1x200x1024_S4x200x1024)) shapeCasts_S4x200x1024_S800x1024 := rfl

/-- The stored block: features plus gate times read-out, unflattened. -/
theorem pay1_eq (v4 v23 v36 : FVec Ideal S800x1024 .f32) : k0_pay1 v4 v23 v36
    = shapeCast S4x200x1024 (addf v4 (mulf v36 v23)) shapeCasts_S800x1024_S4x200x1024 := rfl

/-- Row `r = b · 200 + s` of the flattened features is the input row plus the position row. -/
theorem pay2_apply (b : Fin 4) (s : Fin 200) (r : Fin 800) (hr : r.val = b.val * 200 + s.val) (k : Fin 1024) :
    k0_pay2 P0 P1 (ix2 r k) = P0 (ix3 b s k) + P1 (ix3 (0 : Fin 1) s k) := by
  rw [pay2_eq]
  refine (shapeCast_apply _ shapeCasts_S4x200x1024_S800x1024 (ix2 r k) (ix3 b s k) ?_).trans ?_
  · rw [Shape.rowMajor_val_three, Shape.rowMajor_val_two]
    show (b.val * 200 + s.val) * 1024 + k.val = r.val * 1024 + k.val
    rw [hr]
  · show P0 (ix3 b s k) + broadcastTo S4x200x1024 P1 broadcasts_S1x200x1024_S4x200x1024 (ix3 b s k) = _
    refine congrArg (P0 (ix3 b s k) + ·) ?_
    exact broadcastTo_apply P1 broadcasts_S1x200x1024_S4x200x1024 (ix3 b s k) (ix3 (0 : Fin 1) s k) fun a => match a with
      | ⟨0, _⟩ => by show 0 = (if (1 : Nat) = 1 then 0 else b.val); rw [if_pos rfl]
      | ⟨1, _⟩ => by show s.val = (if (200 : Nat) = 1 then 0 else s.val); rw [if_neg (by decide)]
      | ⟨2, _⟩ => by show k.val = (if (1024 : Nat) = 1 then 0 else k.val); rw [if_neg (by decide)]

/-- An entry of the score matrix. -/
theorem scores_apply (r : Fin 800) (m : Fin 50) :
    scores P0 P1 P3 (ix2 r m) = ∑ k : Fin 1024, k0_pay2 P0 P1 (ix2 r k) * P3 (ix2 k m) := by
  unfold scores
  rw [shapeCast_self]
  exact scoreProduct_apply (k0_pay3 P0 P1) P3 r m

/-- The bias, cast to one row and laid along the 800 rows, read at (r, o). -/
theorem biasRow_apply (r : Fin 800) (o : Fin 1024) :
    broadcastTo S800x1024 (shapeCast S1x1024 P6 shapeCasts_S1024_S1x1024 : FVec Ideal S1x1024 .f32) broadcasts_S1x1024_S800x1024 (ix2 r o)
      = P6 (ix1 o) := by
  refine (broadcastTo_apply _ broadcasts_S1x1024_S800x1024 (ix2 r o) (ix2 (0 : Fin 1) o) fun a => ?_).trans ?_
  · match a with
    | ⟨0, _⟩ => show 0 = (if (1 : Nat) = 1 then 0 else r.val); rw [if_pos rfl]
    | ⟨1, _⟩ => show o.val = (if (1024 : Nat) = 1 then 0 else o.val); rw [if_neg (by decide)]
  · exact shapeCast_apply P6 shapeCasts_S1024_S1x1024 (ix2 (0 : Fin 1) o) (ix1 o) (by
      rw [Shape.rowMajor_val_one, Shape.rowMajor_val_two]
      show o.val = 0 * 1024 + o.val
      omega)

/-! ## One row of the block is the row specification -/

section OneRow

variable (b : Fin 4) (s : Fin 200) (r : Fin 800) (hr : r.val = b.val * 200 + s.val)
  (f : Fin 1024 → EReal) (mem : Fin 50 → Fin 1024 → EReal) (wf wm : Fin 1024 → Fin 1024 → EReal) (gb : Fin 1024 → EReal)
  (hf : ∀ k : Fin 1024, P0 (ix3 b s k) + P1 (ix3 (0 : Fin 1) s k) = f k)
  (hmem : ∀ (m : Fin 50) (k : Fin 1024), P2 (ix2 m k) = mem m k)
  (hmemT : ∀ (k : Fin 1024) (m : Fin 50), P3 (ix2 k m) = mem m k)
  (hwf : ∀ k o : Fin 1024, P4 (ix2 k o) = wf o k)
  (hwm : ∀ k o : Fin 1024, P5 (ix2 k o) = wm o k)
  (hgb : ∀ o : Fin 1024, P6 (ix1 o) = gb o)

include hr hf in
theorem feat_row (k : Fin 1024) : k0_pay2 P0 P1 (ix2 r k) = f k :=
  (pay2_apply P0 P1 b s r hr k).trans (hf k)

include hr hf hmemT in
theorem scores_row (m : Fin 50) : scores P0 P1 P3 (ix2 r m) = score f mem m := by
  rw [scores_apply]
  exact Finset.sum_congr rfl fun k _ => by rw [feat_row P0 P1 b s r hr f hf k, hmemT k m]

include hr hf hmemT hmem in
theorem readout_row (h : Fin 1024) : k0_pay4 P0 P1 P2 P3 (ix2 r h) = readout f mem h := by
  rw [pay4_eq, shapeCast_self]
  refine (readProduct_apply _ P2 r h).trans ?_
  refine Finset.sum_congr rfl fun m _ => ?_
  show probs (scores P0 P1 P3) (ix2 r m) * P2 (ix2 m h) = share f mem m * mem m h
  rw [probs_eq_share (scores P0 P1 P3) r f mem (scores_row P0 P1 P3 b s r hr f mem hf hmemT) m, hmem m h]

include hr hf hmemT hmem hwf hwm hgb in
theorem gate_row (o : Fin 1024) : k0_pay5 P0 P1 P2 P3 P4 P5 P6 (ix2 r o) = gate f mem wf wm gb o := by
  rw [pay5_eq, shapeCast_self, shapeCast_self]
  have e1 := gateProduct_apply (k0_pay3 P0 P1) P4 r o
  have e2 := gateProduct_apply (truncf .bf16 (k0_pay4 P0 P1 P2 P3) bitsLt_bf16_f32) P5 r o
  have e3 := biasRow_apply P6 r o
  have s1 : (∑ k : Fin 1024, k0_pay3 P0 P1 (ix2 r k) * P4 (ix2 k o)) = ∑ k : Fin 1024, f k * wf o k :=
    Finset.sum_congr rfl fun k _ => by
      show k0_pay2 P0 P1 (ix2 r k) * P4 (ix2 k o) = _
      rw [feat_row P0 P1 b s r hr f hf k, hwf k o]
  have s2 : (∑ k : Fin 1024, (truncf .bf16 (k0_pay4 P0 P1 P2 P3) bitsLt_bf16_f32 : FVec Ideal S800x1024 .bf16) (ix2 r k) * P5 (ix2 k o))
      = ∑ k : Fin 1024, readout f mem k * wm o k :=
    Finset.sum_congr rfl fun k _ => by
      show k0_pay4 P0 P1 P2 P3 (ix2 r k) * P5 (ix2 k o) = _
      rw [readout_row P0 P1 P2 P3 b s r hr f mem hf hmem hmemT k, hwm k o]
  show Ideal.logistic ((_ + _) + _) = _
  rw [e1, e2, e3, s1, s2, hgb o]
  rfl

include hr hf hmemT hmem hwf hwm hgb in
/-- The value stored at (b, s, h) of the block. -/
theorem stored_row (h : Fin 1024) :
    k0_pay1 (k0_pay2 P0 P1) (k0_pay4 P0 P1 P2 P3) (k0_pay5 P0 P1 P2 P3 P4 P5 P6) (ix3 b s h) = rowOut f mem wf wm gb h := by
  rw [pay1_eq]
  refine (shapeCast_apply _ shapeCasts_S800x1024_S4x200x1024 (ix3 b s h) (ix2 r h) ?_).trans ?_
  · rw [Shape.rowMajor_val_three, Shape.rowMajor_val_two]
    show r.val * 1024 + h.val = (b.val * 200 + s.val) * 1024 + h.val
    rw [hr]
  · show k0_pay2 P0 P1 (ix2 r h) + k0_pay5 P0 P1 P2 P3 P4 P5 P6 (ix2 r h) * k0_pay4 P0 P1 P2 P3 (ix2 r h) = _
    rw [feat_row P0 P1 b s r hr f hf h, gate_row P0 P1 P2 P3 P4 P5 P6 b s r hr f mem wf wm gb hf hmem hmemT hwf hwm hgb h,
      readout_row P0 P1 P2 P3 b s r hr f mem hf hmem hmemT h]
    rfl

end OneRow

end Cert.MemoryGate.Kernel

end
-- ==== Proof.Blocks.lean ====
/-
  From the kernel's blocks to its whole result array.

  The grid has 64 points; point `t` works on batches `4t … 4t + 3`: its first operand is block `t` of `x` along the batch
  axis and its result is written back to block `t` of the output, while the other six operands are whole arrays, the
  same at every point: the position rows as given; the memory bank, its transpose, and the transposed left and right
  halves of the gate weight, as the host operations before the launch left them; and the bias. Read at an index, each
  of those is an entry of an argument array: the transposes swap the two coordinates and the right half starts at column
  1024. So at point `t` the body's seven operands hold, at row (b, s) of the block, exactly the feature row, memory,
  gate maps and bias of batch `4t + b`, position `s`, and what the point writes back is block `t` of the row
  specification's array. The 64 blocks cover the array (batch `β` lies in block `β / 4`), so the array ends as the
  specification.
-/
import proofs.«110708_j83872121357101_1_alg».proof.Proof.Gen.KernelIdeal.Frame
import proofs.«110708_j83872121357101_1_alg».proof.Proof.Gen.KernelIdeal.Points
import proofs.«110708_j83872121357101_1_alg».proof.Proof.KernelRow
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.MemoryGate.Blocks

open Idealize.ShloMosaic Idealize.ShloMosaic.TcCoe Idealize.SL.Sem Idealize.ShloMosaic.StableHlo Idealize.ShloMosaic.ValueIdx
  Cert.KernelIdeal Cert.KernelIdeal.Gen Cert.MemoryGate
open Idealize.ShloMosaic.Pipeline (Dat)

variable (m : (ℓ : Loc nD τ sig) → Buf (Elt Ideal) ℓ) (ρ : Dev nD → PrngReg)

/-! ## The operands the host prepares, read at an index -/

/-- The memory bank handed to the kernel is the argument (a change of float format is the identity here). -/
theorem bank_apply (c : Dev nD) (mm : Fin 50) (k : Fin 1024) :
    (V m c main_v0 : S50x1024.Idx → EReal) (ix2 mm k) = (m ((c : Thread nD τ).loc main_arg1) : S50x1024.Idx → EReal) (ix2 mm k) := by
  have e : @Eq (S50x1024.Idx → EReal) (V m c main_v0)
      (truncf (F := Ideal) .bf16 (m (c, Proc.tc.devRef main_arg1) : FVec Ideal S50x1024 .f32) bitsLt_bf16_f32) := by
    dsimp only [V, hostOps0]; after_results <;> rfl
  rw [e]; rfl

/-- Its transpose at (k, mm) is the argument at (mm, k). -/
theorem bankT_apply (c : Dev nD) (k : Fin 1024) (mm : Fin 50) :
    (V m c main_v2 : S1024x50.Idx → EReal) (ix2 k mm) = (m ((c : Thread nD τ).loc main_arg1) : S50x1024.Idx → EReal) (ix2 mm k) := by
  have e : @Eq (S1024x50.Idx → EReal) (V m c main_v2)
      (truncf (F := Ideal) .bf16 (transpose S1024x50 [1, 0] (m (c, Proc.tc.devRef main_arg1) : FVec Ideal S50x1024 .f32) transposes_S50x1024_S1024x50_1_0 : FVec Ideal S1024x50 .f32) bitsLt_bf16_f32) := by
    dsimp only [V, hostOps0]; after_results <;> rfl
  rw [e]
  exact transpose_ix2_apply (m (c, Proc.tc.devRef main_arg1) : FVec Ideal S50x1024 .f32) transposes_S50x1024_S1024x50_1_0 k mm

/-- The transposed left half of the gate weight at (k, o) is the weight at (o, k). -/
theorem gateL_apply (c : Dev nD) (k o : Fin 1024) :
    (V m c main_v6 : S1024x1024.Idx → EReal) (ix2 k o) = gateLeft (m ((c : Thread nD τ).loc main_arg3)) o k := by
  have e : @Eq (S1024x1024.Idx → EReal) (V m c main_v6)
      (truncf (F := Ideal) .bf16 (transpose S1024x1024 [1, 0] (extractStridedSlice S1024x1024 ![0, 0] (m (c, Proc.tc.devRef main_arg3) : FVec Ideal S1024x2048 .f32) slices_S1024x2048_S1024x1024_0_0) transposes_S1024x1024_S1024x1024_1_0 : FVec Ideal S1024x1024 .f32) bitsLt_bf16_f32) := by
    dsimp only [V, hostOps0]; after_results <;> rfl
  rw [e]
  refine (transpose_ix2_apply (extractStridedSlice S1024x1024 ![0, 0] (m (c, Proc.tc.devRef main_arg3) : FVec Ideal S1024x2048 .f32) slices_S1024x2048_S1024x1024_0_0) transposes_S1024x1024_S1024x1024_1_0 k o).trans ?_
  exact extractStridedSlice_apply ![0, 0] _ slices_S1024x2048_S1024x1024_0_0 (ix2 o k)
    (ix2 o (⟨k.val, by have := k.isLt; omega⟩ : Fin 2048)) fun a => match a with
      | ⟨0, _⟩ => by show o.val = 0 + o.val; omega
      | ⟨1, _⟩ => by show k.val = 0 + k.val; omega

/-- The transposed right half at (k, o) is the weight at (o, 1024 + k). -/
theorem gateR_apply (c : Dev nD) (k o : Fin 1024) :
    (V m c main_v8 : S1024x1024.Idx → EReal) (ix2 k o) = gateRight (m ((c : Thread nD τ).loc main_arg3)) o k := by
  have e : @Eq (S1024x1024.Idx → EReal) (V m c main_v8)
      (truncf (F := Ideal) .bf16 (transpose S1024x1024 [1, 0] (extractStridedSlice S1024x1024 ![0, 1024] (m (c, Proc.tc.devRef main_arg3) : FVec Ideal S1024x2048 .f32) slices_S1024x2048_S1024x1024_0_1024) transposes_S1024x1024_S1024x1024_1_0 : FVec Ideal S1024x1024 .f32) bitsLt_bf16_f32) := by
    dsimp only [V, hostOps0]; after_results <;> rfl
  rw [e]
  refine (transpose_ix2_apply (extractStridedSlice S1024x1024 ![0, 1024] (m (c, Proc.tc.devRef main_arg3) : FVec Ideal S1024x2048 .f32) slices_S1024x2048_S1024x1024_0_1024) transposes_S1024x1024_S1024x1024_1_0 k o).trans ?_
  exact extractStridedSlice_apply ![0, 1024] _ slices_S1024x2048_S1024x1024_0_1024 (ix2 o k)
    (ix2 o (⟨1024 + k.val, by have := k.isLt; omega⟩ : Fin 2048)) fun a => match a with
      | ⟨0, _⟩ => by show o.val = 0 + o.val; omega
      | ⟨1, _⟩ => by show 1024 + k.val = 1024 + k.val; rfl

/-! ## Where each window's block sits, decided over the 64 points -/

theorem block_facts : ∀ t : Fin cfg0.N,
    win0_0.index t (0 : Fin 3) = win0_7.index t (0 : Fin 3) ∧ win0_0.index t (1 : Fin 3) = 0 ∧ win0_0.index t (2 : Fin 3) = 0
    ∧ win0_7.index t (0 : Fin 3) < 64 ∧ win0_7.index t (1 : Fin 3) = 0 ∧ win0_7.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

/-- Every batch block is some point's. -/
theorem block_onto : ∀ q : Fin 64, ∃ t : Fin cfg0.N, win0_7.index t (0 : Fin 3) = q.val :=
  (by decide +kernel : ∀ q : Fin 64, ∃ t : Fin grid0.N, win0_7.index t (0 : Fin 3) = q.val)

/-- The batch that row `b` of point `t`'s block is. -/
def batchOf (t : Fin cfg0.N) (b : Fin 4) : Fin 256 :=
  ⟨win0_7.index t (0 : Fin 3) * 4 + b.val, by
    have h := (block_facts t).2.2.2.1
    have hb := b.isLt
    omega⟩

/-! ## Each window's block at a point, read at an index -/

theorem blockX (c : Dev nD) (t : Fin cfg0.N) (b : Fin 4) (s : Fin 200) (k : Fin 1024) :
    iblk m c 0 t (ix3 b s k) = (m ((c : Thread nD τ).loc main_arg0) : S256x200x1024.Idx → EReal) (ix3 (batchOf t b) s k) := by
  obtain ⟨e0, e1, e2, -⟩ := block_facts t
  show V m c main_arg0 (((cfg0.win 0).blk t).view.emb (ix3 b s k)) = _
  rw [V_main_arg0]
  refine congrArg (m ((c : Thread nD τ).loc main_arg0) : S256x200x1024.Idx → EReal) ?_
  funext a; apply Fin.ext
  match a with
  | ⟨0, _⟩ => show win0_0.index t (0 : Fin 3) * 4 + 1 * b.val = win0_7.index t (0 : Fin 3) * 4 + b.val; omega
  | ⟨1, _⟩ => show win0_0.index t (1 : Fin 3) * 200 + 1 * s.val = s.val; omega
  | ⟨2, _⟩ => show win0_0.index t (2 : Fin 3) * 1024 + 1 * k.val = k.val; omega

theorem blockPos (c : Dev nD) (t : Fin cfg0.N) (s : Fin 200) (k : Fin 1024) :
    iblk m c 1 t (ix3 (0 : Fin 1) s k) = (m ((c : Thread nD τ).loc main_arg2) : S1x200x1024.Idx → EReal) (ix3 (0 : Fin 1) s k) := by
  obtain ⟨-, -, -, -, -, -, e0, e1, e2, -⟩ := block_facts t
  show V m c main_arg2 (((cfg0.win 1).blk t).view.emb (ix3 (0 : Fin 1) s k)) = _
  rw [V_main_arg2]
  refine congrArg (m ((c : Thread nD τ).loc main_arg2) : S1x200x1024.Idx → EReal) ?_
  funext a; apply Fin.ext
  match a with
  | ⟨0, _⟩ => show win0_1.index t (0 : Fin 3) * 1 + 1 * 0 = 0; omega
  | ⟨1, _⟩ => show win0_1.index t (1 : Fin 3) * 200 + 1 * s.val = s.val; omega
  | ⟨2, _⟩ => show win0_1.index t (2 : Fin 3) * 1024 + 1 * k.val = k.val; omega

theorem blockBank (c : Dev nD) (t : Fin cfg0.N) (mm : Fin 50) (k : Fin 1024) :
    iblk m c 2 t (ix2 mm k) = memRows (m ((c : Thread nD τ).loc main_arg1)) mm k := by
  obtain ⟨-, -, -, -, -, -, -, -, -, e0, e1, -⟩ := block_facts t
  show (V m c main_v0 : S50x1024.Idx → EReal) (((cfg0.win 2).blk t).view.emb (ix2 mm k)) = _
  have he : ((cfg0.win 2).blk t).view.emb (ix2 mm k) = ix2 mm k := by
    funext a; apply Fin.ext
    match a with
    | ⟨0, _⟩ => show win0_2.index t (0 : Fin 2) * 50 + 1 * mm.val = mm.val; omega
    | ⟨1, _⟩ => show win0_2.index t (1 : Fin 2) * 1024 + 1 * k.val = k.val; omega
  rw [he, bank_apply]
  rfl

theorem blockBankT (c : Dev nD) (t : Fin cfg0.N) (k : Fin 1024) (mm : Fin 50) :
    iblk m c 3 t (ix2 k mm) = memRows (m ((c : Thread nD τ).loc main_arg1)) mm k := by
  obtain ⟨-, -, -, -, -, -, -, -, -, -, -, e0, e1, -⟩ := block_facts t
  show (V m c main_v2 : S1024x50.Idx → EReal) (((cfg0.win 3).blk t).view.emb (ix2 k mm)) = _
  have he : ((cfg0.win 3).blk t).view.emb (ix2 k mm) = ix2 k mm := by
    funext a; apply Fin.ext
    match a with
    | ⟨0, _⟩ => show win0_3.index t (0 : Fin 2) * 1024 + 1 * k.val = k.val; omega
    | ⟨1, _⟩ => show win0_3.index t (1 : Fin 2) * 50 + 1 * mm.val = mm.val; omega
  rw [he, bankT_apply]
  rfl

theorem blockGateL (c : Dev nD) (t : Fin cfg0.N) (k o : Fin 1024) :
    iblk m c 4 t (ix2 k o) = gateLeft (m ((c : Thread nD τ).loc main_arg3)) o k := by
  obtain ⟨-, -, -, -, -, -, -, -, -, -, -, -, -, e0, e1, -⟩ := block_facts t
  show (V m c main_v6 : S1024x1024.Idx → EReal) (((cfg0.win 4).blk t).view.emb (ix2 k o)) = _
  have he : ((cfg0.win 4).blk t).view.emb (ix2 k o) = ix2 k o := by
    funext a; apply Fin.ext
    match a with
    | ⟨0, _⟩ => show win0_4.index t (0 : Fin 2) * 1024 + 1 * k.val = k.val; omega
    | ⟨1, _⟩ => show win0_4.index t (1 : Fin 2) * 1024 + 1 * o.val = o.val; omega
  rw [he, gateL_apply]

theorem blockGateR (c : Dev nD) (t : Fin cfg0.N) (k o : Fin 1024) :
    iblk m c 5 t (ix2 k o) = gateRight (m ((c : Thread nD τ).loc main_arg3)) o k := by
  obtain ⟨-, -, -, -, -, -, -, -, -, -, -, -, -, -, -, e0, e1, -⟩ := block_facts t
  show (V m c main_v8 : S1024x1024.Idx → EReal) (((cfg0.win 5).blk t).view.emb (ix2 k o)) = _
  have he : ((cfg0.win 5).blk t).view.emb (ix2 k o) = ix2 k o := by
    funext a; apply Fin.ext
    match a with
    | ⟨0, _⟩ => show win0_5.index t (0 : Fin 2) * 1024 + 1 * k.val = k.val; omega
    | ⟨1, _⟩ => show win0_5.index t (1 : Fin 2) * 1024 + 1 * o.val = o.val; omega
  rw [he, gateR_apply]

theorem blockBias (c : Dev nD) (t : Fin cfg0.N) (o : Fin 1024) :
    iblk m c 6 t (ix1 o) = bias (m ((c : Thread nD τ).loc main_arg4)) o := by
  have e0 := (block_facts t).2.2.2.2.2.2.2.2.2.2.2.2.2.2.2.2.2
  show V m c main_arg4 (((cfg0.win 6).blk t).view.emb (ix1 o)) = _
  rw [V_main_arg4]
  refine congrArg (m ((c : Thread nD τ).loc main_arg4) : S1024.Idx → EReal) ?_
  funext a; apply Fin.ext
  match a with
  | ⟨0, _⟩ => show win0_6.index t (0 : Fin 1) * 1024 + 1 * o.val = o.val; omega

/-! ## What a point writes back -/

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The row specification's array of the five arguments as launched. -/
abbrev spec (c : Dev nD) : S256x200x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The body's stored value at (b, s, h) of point `t`'s block is the specification at batch `4t + b`. -/
theorem block_value (c : Dev nD) (t : Fin cfg0.N) (b : Fin 4) (s : Fin 200) (h : Fin 1024) :
    k0_pay1 (k0_pay2 (iblk m c 0 t) (iblk m c 1 t)) (k0_pay4 (iblk m c 0 t) (iblk m c 1 t) (iblk m c 2 t) (iblk m c 3 t))
        (k0_pay5 (iblk m c 0 t) (iblk m c 1 t) (iblk m c 2 t) (iblk m c 3 t) (iblk m c 4 t) (iblk m c 5 t) (iblk m c 6 t)) (ix3 b s h)
      = spec m c (ix3 (batchOf t b) s h) := by
  refine Eq.trans ?_ (result_ix3 (m ((c : Thread nD τ).loc main_arg0)) (m ((c : Thread nD τ).loc main_arg1))
    (m ((c : Thread nD τ).loc main_arg2)) (m ((c : Thread nD τ).loc main_arg3)) (m ((c : Thread nD τ).loc main_arg4))
    (batchOf t b) s h).symm
  exact Kernel.stored_row (iblk m c 0 t) (iblk m c 1 t) (iblk m c 2 t) (iblk m c 3 t) (iblk m c 4 t) (iblk m c 5 t) (iblk m c 6 t)
    b s ⟨b.val * 200 + s.val, by have := b.isLt; have := s.isLt; omega⟩ rfl
    (feat (m ((c : Thread nD τ).loc main_arg0)) (m ((c : Thread nD τ).loc main_arg2)) (batchOf t b) s)
    (memRows (m ((c : Thread nD τ).loc main_arg1))) (gateLeft (m ((c : Thread nD τ).loc main_arg3)))
    (gateRight (m ((c : Thread nD τ).loc main_arg3))) (bias (m ((c : Thread nD τ).loc main_arg4)))
    (fun k => by rw [blockX, blockPos]; rfl)
    (fun mm k => blockBank m c t mm k)
    (fun k mm => blockBankT m c t k mm)
    (fun k o => blockGateL m c t k o)
    (fun k o => blockGateR m c t k o)
    (fun o => blockBias m c t o) h

/-- WHAT POINT `t` WRITES BACK is block `t` of the specification's array. -/
theorem flushed_eq (c : Dev nD) (t : Fin cfg0.N) :
    (dats m 0 c).flushed 7 t = ((cfg0.win 7).blk t).view.read (Elt Ideal) (spec m c) := by
  show (cfg0.win 7).cut (grid0.coords t) ((dats m 0 c).after 7 t) = _
  rw [after0_7]
  unfold out0_7
  rw [View.canon_unit_zero zero3]
  simp only [View.ld_unit_zero (S := S4x200x1024) zero3, View.ld_unit_zero (S := S1x200x1024) zero3,
    View.ld_unit_zero (S := S50x1024) zero2, View.ld_unit_zero (S := S1024x50) zero2,
    View.ld_unit_zero (S := S1024x1024) zero2, View.ld_unit_zero (S := S1024) zero1]
  funext y
  obtain ⟨b, s, h, rfl⟩ : ∃ (b : Fin 4) (s : Fin 200) (h : Fin 1024), y = ix3 b s h := ⟨y 0, y 1, y 2, eq_ix3 y⟩
  have he : ((cfg0.win 7).blk t).view.emb (ix3 b s h) = ix3 (batchOf t b) s h := by
    obtain ⟨-, -, -, -, e1, e2, -⟩ := block_facts t
    funext a; apply Fin.ext
    match a with
    | ⟨0, _⟩ => show win0_7.index t (0 : Fin 3) * 4 + 1 * b.val = win0_7.index t (0 : Fin 3) * 4 + b.val; omega
    | ⟨1, _⟩ => show win0_7.index t (1 : Fin 3) * 200 + 1 * s.val = s.val; omega
    | ⟨2, _⟩ => show win0_7.index t (2 : Fin 3) * 1024 + 1 * h.val = h.val; omega
  show _ = spec m c (((cfg0.win 7).blk t).view.emb (ix3 b s h))
  rw [he]
  exact block_value m c t b s h

/-! ## The blocks cover the array -/

/-- An index is in point `t`'s block iff each coordinate is in the block's range on its axis. -/
theorem mem_block (t : Fin cfg0.N) (i : S256x200x1024.Idx) :
    i ∈ ((cfg0.win 7).blk t).view.set ↔ ∀ a : Fin 3, win0_7.index t a * S4x200x1024.size a ≤ (i a).val
      ∧ (i a).val < win0_7.index t a * S4x200x1024.size a + S4x200x1024.size a := by
  show i ∈ ((View.whole main_v9).slice (win0_7.rect t)).set ↔ _
  rw [View.set_slice_whole, Rect.mem_set_unit]
  exact Iff.rfl

/-- Batch `β` lies in block `β / 4`. -/
theorem cover (i : S256x200x1024.Idx) :
    ∃ t : Fin cfg0.N, (cfg0.win 7).flush t = true ∧ i ∈ ((cfg0.win 7).blk t).view.set := by
  have hi0 : (i 0).val < 256 := (i 0).isLt
  have hi1 : (i 1).val < 200 := (i 1).isLt
  have hi2 : (i 2).val < 1024 := (i 2).isLt
  obtain ⟨t, ht⟩ := block_onto ⟨(i 0).val / 4, by omega⟩
  obtain ⟨-, -, -, -, e1, e2, -⟩ := block_facts t
  have q0 : win0_7.index t (0 : Fin 3) = (i 0).val / 4 := ht
  refine ⟨t, flush0_7 t, ?_⟩
  rw [mem_block]
  intro a
  match a with
  | ⟨0, _⟩ => show win0_7.index t (0 : Fin 3) * 4 ≤ (i 0).val ∧ (i 0).val < win0_7.index t (0 : Fin 3) * 4 + 4; omega
  | ⟨1, _⟩ => show win0_7.index t (1 : Fin 3) * 200 ≤ (i 1).val ∧ (i 1).val < win0_7.index t (1 : Fin 3) * 200 + 200; omega
  | ⟨2, _⟩ => show win0_7.index t (2 : Fin 3) * 1024 ≤ (i 2).val ∧ (i 2).val < win0_7.index t (2 : Fin 3) * 1024 + 1024; omega

/-- THE ARRAY after the run is the specification's. -/
theorem final (c : Dev nD) : (dats m 0 c).arrAt 7 cfg0.N = spec m c :=
  (dats m 0 c).arrAt_eq_of_cover 7 (spec m c) (fun t _ => flushed_eq m c t) cover

/-! ## The run, read -/

/-- Every weakly fair execution of the kernel program ends with its result array at the specification of the arguments
    as launched, and the arguments unchanged. -/
theorem run : θ_run defs (onTc (τ := τ) (main (F := Ideal))) ⟨m, fun _ => 0, ρ⟩ fun r => ∀ c : Dev nD,
      r.2.mem ((c : Thread nD τ).loc main_v9) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 6).trans (((dats m 0 c).arrAt_in 6 rfl _).trans ((A_eq m c 6).trans (V_main_arg4 m c)))⟩)
    (run_main m ρ)

end Cert.MemoryGate.Blocks

end
-- ==== Proof.Words.lean ====
/-
  The two float words the reference spells where the kernel has none: the f32 word of 1.0 denotes the number 1 (the
  reference writes its logistic out as 1 / (1 + exp (−v))), and a sum started from the f32 zero word is the sum.
-/
import Idealize.ShloMosaic.PureOps.Ideal
import Idealize.ShloMosaic.PureOps.Ideal.Laws

noncomputable section

namespace Cert.MemoryGate

open Idealize.ShloMosaic

/-- The f32 word `0x3F800000` is the number 1. -/
theorem ofBits_one : Ideal.ofBits .f32 0x3F800000#32 = 1 := by
  simp [Ideal.ofBits, Ideal.ieee, -EReal.coe_mul]; norm_num

/-- A sum started from the f32 zero word is the sum. -/
theorem zero_word_add (a : EReal) : Ideal.ofBits .f32 0x00000000#32 + a = a := by
  rw [Ideal.ofBits_zero_f32, zero_add]

/-- The logistic is the quotient the reference writes out, with both of its 1.0 words read as the number 1. -/
theorem logistic_spelt (v : EReal) :
    Ideal.div (Ideal.ofBits .f32 0x3F800000#32) (Ideal.ofBits .f32 0x3F800000#32 + Ideal.exp (-v)) = Ideal.logistic v := by
  rw [ofBits_one]; rfl

end Cert.MemoryGate

end
-- ==== Proof.RefRow.lean ====
/-
  The reference program, stage by stage, is the row specification.

  Its run is a chain of whole-array operations over [256, 200, ·] arrays; read at batch `b`, position `s`, each stage is
  the corresponding quantity of the feature row at (b, s): the sum `x + pos` is the row, the first product its scores,
  the maximum over the last axis (joined once more with −∞) their peak, the exponentials the weights, their sum (started
  from the zero word) the mass, the quotient the shares, the second product the read-out, the two products against the
  halves of the gate weight plus the bias the gate's argument, the written-out `1 / (1 + exp (−v))` its logistic, and
  the last two operations `row + gate · readout`.
-/
import proofs.«110708_j83872121357101_1_alg».proof.Proof.Gen.ReferenceIdeal.Read
import proofs.«110708_j83872121357101_1_alg».proof.Proof.Row
import proofs.«110708_j83872121357101_1_alg».proof.Proof.Words
import Idealize.ShloMosaic.Lib.ValueIdx
import Idealize.ShloMosaic.PureOps.Ideal.Laws

noncomputable section

namespace Cert.MemoryGate.Reference

open Idealize.ShloMosaic Idealize.ShloMosaic.ValueIdx Cert.ReferenceIdeal Cert.ReferenceIdeal.Gen Cert.ReferenceIdeal.Read
  Cert.MemoryGate

variable (x0 : (⟨S256x200x1024, .f32⟩ : BufTy).Contents (Elt Ideal)) (x1 : (⟨S50x1024, .f32⟩ : BufTy).Contents (Elt Ideal))
  (x2 : (⟨S1x200x1024, .f32⟩ : BufTy).Contents (Elt Ideal)) (x3 : (⟨S1024x2048, .f32⟩ : BufTy).Contents (Elt Ideal))
  (x4 : (⟨S1024, .f32⟩ : BufTy).Contents (Elt Ideal))

/-! ## Where each stage reads its operands, at (b, s, ·) -/

theorem at_pos (b : Fin 256) (s : Fin 200) (k : Fin 1024) : idx_main_v0 (ix3 b s k) = ix3 (0 : Fin 1) s k := by
  funext a; apply Fin.ext
  match a with
  | ⟨0, _⟩ => rfl
  | ⟨1, _⟩ => rfl
  | ⟨2, _⟩ => rfl

theorem at_score_l (b : Fin 256) (s : Fin 200) (m : Fin 50) (k : Fin 1024) : lidx_main_v2 (ix3 b s m) k = ix3 b s k := by
  funext a; apply Fin.ext
  match a with
  | ⟨0, _⟩ => rfl
  | ⟨1, _⟩ => rfl
  | ⟨2, _⟩ => rfl

theorem at_score_r (b : Fin 256) (s : Fin 200) (m : Fin 50) (k : Fin 1024) : ridx_main_v2 (ix3 b s m) k = ix2 m k := by
  funext a; apply Fin.ext
  match a with
  | ⟨0, _⟩ => rfl
  | ⟨1, _⟩ => rfl

theorem at_keep (b : Fin 256) (s : Fin 200) (m : Fin 50) : idx_main_v6 (idx_main_v7 (ix3 b s m)) = ix2 b s := by
  funext a; apply Fin.ext
  match a with
  | ⟨0, _⟩ => rfl
  | ⟨1, _⟩ => rfl

theorem at_keep' (b : Fin 256) (s : Fin 200) (m : Fin 50) : idx_main_v11 (idx_main_v12 (ix3 b s m)) = ix2 b s := by
  funext a; apply Fin.ext
  match a with
  | ⟨0, _⟩ => rfl
  | ⟨1, _⟩ => rfl

theorem at_sum (b : Fin 256) (s : Fin 200) (m : Fin 50) : idx_main_v10 (ix2 b s) m = ix3 b s m := by
  funext a; apply Fin.ext
  match a with
  | ⟨0, _⟩ => rfl
  | ⟨1, _⟩ => rfl
  | ⟨2, _⟩ => rfl

theorem at_read_l (b : Fin 256) (s : Fin 200) (h : Fin 1024) (m : Fin 50) : lidx_main_v14 (ix3 b s h) m = ix3 b s m := by
  funext a; apply Fin.ext
  match a with
  | ⟨0, _⟩ => rfl
  | ⟨1, _⟩ => rfl
  | ⟨2, _⟩ => rfl

theorem at_read_r (b : Fin 256) (s : Fin 200) (h : Fin 1024) (m : Fin 50) : ridx_main_v14 (ix3 b s h) m = ix2 m h := by
  funext a; apply Fin.ext
  match a with
  | ⟨0, _⟩ => rfl
  | ⟨1, _⟩ => rfl

theorem at_gate_l (b : Fin 256) (s : Fin 200) (o k : Fin 1024) : lidx_main_v17 (ix3 b s o) k = ix3 b s k := by
  funext a; apply Fin.ext
  match a with
  | ⟨0, _⟩ => rfl
  | ⟨1, _⟩ => rfl
  | ⟨2, _⟩ => rfl

theorem at_gate_r (b : Fin 256) (s : Fin 200) (o k : Fin 1024) : ridx_main_v17 (ix3 b s o) k = ix2 o k := by
  funext a; apply Fin.ext
  match a with
  | ⟨0, _⟩ => rfl
  | ⟨1, _⟩ => rfl

theorem at_gate_l' (b : Fin 256) (s : Fin 200) (o k : Fin 1024) : lidx_main_v18 (ix3 b s o) k = ix3 b s k := by
  funext a; apply Fin.ext
  match a with
  | ⟨0, _⟩ => rfl
  | ⟨1, _⟩ => rfl
  | ⟨2, _⟩ => rfl

theorem at_gate_r' (b : Fin 256) (s : Fin 200) (o k : Fin 1024) : ridx_main_v18 (ix3 b s o) k = ix2 o k := by
  funext a; apply Fin.ext
  match a with
  | ⟨0, _⟩ => rfl
  | ⟨1, _⟩ => rfl

theorem at_left (o k : Fin 1024) : idx_main_v15 (ix2 o k) = ix2 o (⟨k.val, by have := k.isLt; omega⟩ : Fin 2048) := by
  funext a; apply Fin.ext
  match a with
  | ⟨0, _⟩ => rfl
  | ⟨1, _⟩ => rfl

theorem at_right (o k : Fin 1024) : idx_main_v16 (ix2 o k) = ix2 o (⟨1024 + k.val, by have := k.isLt; omega⟩ : Fin 2048) := by
  funext a; apply Fin.ext
  match a with
  | ⟨0, _⟩ => rfl
  | ⟨1, _⟩ => rfl

theorem at_bias (b : Fin 256) (s : Fin 200) (o : Fin 1024) : idx_main_v20 (idx_main_v21 (ix3 b s o)) = ix1 o := by
  funext a; apply Fin.ext
  match a with
  | ⟨0, _⟩ => rfl

/-- The reduced index (b, s) with column `m` put back is (b, s, m). -/
theorem lift_col (h : S256x200x50.Reduces [2] S256x200) (b : Fin 256) (s : Fin 200) (m : Fin 50) :
    h.lift (ix2 b s) m = ix3 b s m := by
  funext a; apply Fin.ext
  match a with
  | ⟨0, _⟩ => rfl
  | ⟨1, _⟩ => rfl
  | ⟨2, _⟩ => rfl

/-! ## The stages -/

theorem feat_apply (b : Fin 256) (s : Fin 200) (k : Fin 1024) :
    val_main_v1 (F := Ideal) x0 x2 (ix3 b s k) = feat x0 x2 b s k := by
  rw [val_main_v1_apply, val_main_v0_apply, at_pos]
  rfl

theorem score_apply (b : Fin 256) (s : Fin 200) (m : Fin 50) :
    val_main_v2 (F := Ideal) x0 x1 x2 (ix3 b s m) = score (feat x0 x2 b s) (memRows x1) m := by
  rw [val_main_v2_apply]
  refine Finset.sum_congr rfl fun k _ => ?_
  rw [at_score_l, at_score_r, feat_apply]
  rfl

theorem peak_apply (b : Fin 256) (s : Fin 200) :
    val_main_v5 (F := Ideal) x0 x1 x2 (ix2 b s) = peak (feat x0 x2 b s) (memRows x1) := by
  have hred : S256x200x50.Reduces [2] S256x200 := by decide
  rw [val_main_v5_apply, val_main_v4_apply, val_main_cst_0_apply]
  unfold val_main_v3
  rw [Host.reduce_eq_fold_single FloatOps.maximumf _ _ reducesTo_S256x200x50_S256x200_d2 hred h_S_ (ix2 b s)]
  have e : (val_main_v2 (F := Ideal) x0 x1 x2 ∘ hred.lift (ix2 b s)) = score (feat x0 x2 b s) (memRows x1) :=
    funext fun m => (congrArg (val_main_v2 (F := Ideal) x0 x1 x2) (lift_col hred b s m)).trans (score_apply x0 x1 x2 b s m)
  rw [e]
  rfl

theorem weight_apply (b : Fin 256) (s : Fin 200) (m : Fin 50) :
    val_main_v9 (F := Ideal) x0 x1 x2 (ix3 b s m) = weight (feat x0 x2 b s) (memRows x1) m := by
  rw [val_main_v9_apply, val_main_v8_apply, val_main_v7_apply, val_main_v6_apply, at_keep, peak_apply, score_apply]
  rfl

theorem mass_apply (b : Fin 256) (s : Fin 200) :
    val_main_v10 (F := Ideal) x0 x1 x2 (ix2 b s) = mass (feat x0 x2 b s) (memRows x1) := by
  rw [val_main_v10_apply, val_main_cst_1_apply]
  refine (zero_word_add _).trans ?_
  exact Finset.sum_congr rfl fun m _ => by rw [at_sum, weight_apply]

theorem share_apply (b : Fin 256) (s : Fin 200) (m : Fin 50) :
    val_main_v13 (F := Ideal) x0 x1 x2 (ix3 b s m) = share (feat x0 x2 b s) (memRows x1) m := by
  rw [val_main_v13_apply, val_main_v12_apply, val_main_v11_apply, at_keep', mass_apply, weight_apply]
  rfl

theorem readout_apply (b : Fin 256) (s : Fin 200) (h : Fin 1024) :
    val_main_v14 (F := Ideal) x0 x1 x2 (ix3 b s h) = readout (feat x0 x2 b s) (memRows x1) h := by
  rw [val_main_v14_apply]
  refine Finset.sum_congr rfl fun m _ => ?_
  rw [at_read_l, at_read_r, share_apply]
  rfl

theorem gate_apply (b : Fin 256) (s : Fin 200) (o : Fin 1024) :
    val_main_v28 (F := Ideal) x0 x1 x2 x3 x4 (ix3 b s o)
      = gate (feat x0 x2 b s) (memRows x1) (gateLeft x3) (gateRight x3) (bias x4) o := by
  have e17 : val_main_v17 (F := Ideal) x0 x2 x3 (ix3 b s o) = ∑ k : Fin 1024, feat x0 x2 b s k * gateLeft x3 o k := by
    rw [val_main_v17_apply]
    refine Finset.sum_congr rfl fun k _ => ?_
    rw [at_gate_l, at_gate_r, feat_apply, val_main_v15_apply, at_left]
    rfl
  have e18 : val_main_v18 (F := Ideal) x0 x1 x2 x3 (ix3 b s o)
      = ∑ k : Fin 1024, readout (feat x0 x2 b s) (memRows x1) k * gateRight x3 o k := by
    rw [val_main_v18_apply]
    refine Finset.sum_congr rfl fun k _ => ?_
    rw [at_gate_l', at_gate_r', readout_apply, val_main_v16_apply, at_right]
    rfl
  have e21 : val_main_v21 (F := Ideal) x4 (ix3 b s o) = bias x4 o := by
    rw [val_main_v21_apply, val_main_v20_apply, at_bias]
    rfl
  rw [val_main_v28_apply, val_main_v27_apply, val_main_cst_3_apply, val_main_v26_apply, val_main_v25_apply,
    val_main_cst_2_apply, val_main_v24_apply, val_main_v23_apply, val_main_v22_apply, val_main_v19_apply, e17, e18, e21]
  exact logistic_spelt _

/-- The reference's result is the row specification at every (b, s, h). -/
theorem reference_eq : val_main_v30 (F := Ideal) x0 x1 x2 x3 x4 = result x0 x1 x2 x3 x4 := by
  funext i
  obtain ⟨b, s, h, rfl⟩ : ∃ (b : Fin 256) (s : Fin 200) (h : Fin 1024), i = ix3 b s h := ⟨i 0, i 1, i 2, eq_ix3 i⟩
  rw [result_ix3, val_main_v30_apply, val_main_v29_apply, feat_apply, gate_apply, readout_apply]
  rfl

end Cert.MemoryGate.Reference

end
-- ==== Proof.lean ====
/-
  A gated read from a small memory bank: the kernel against its jnp reference, on the extended reals.

  Both programs take an input x : [256, 200, 1024], a memory bank [50, 1024], position rows [1, 200, 1024], a gate weight
  [1024, 2048] and a gate bias [1024], and return, for every batch b and position s, the row
      f + gate · readout,    f = x (b, s, ·) + pos (0, s, ·),
  where the scores of f against the 50 memory rows are turned into shares by a softmax taken from their largest value,
  `readout` is the memory rows mixed by those shares, and `gate` is the logistic of f against the left half of the
  weight plus `readout` against its right half plus the bias (Proof/Row.lean states this once, as `result`).

  The kernel runs over 64 grid points, four batches each, on operands the host has re-laid (the bank and its
  transpose, the two halves of the weight transposed); its matrix products are plain products into zero and its softmax
  keeps row maxima and row sums as columns. Proof/KernelRow.lean reads the body's arithmetic at one row, and
  Proof/Blocks.lean reads the operands at an index, shows that point t writes back block t of `result`, that the blocks
  cover the array, and re-posts the kernel's run. The reference is a chain of whole-array operations; Proof/RefRow.lean
  reads each stage at (b, s) and finds the same row function, the only arithmetic needed being that a sum started from
  the zero word is the sum and that the reference's written-out `1 / (1 + exp (−v))`, with its 1.0 words read as 1, is
  the logistic (Proof/Words.lean). Every step is a re-indexing of a finite sum or the same operation on both sides, so
  nothing depends on the inputs being finite and the precondition is never opened.

  The three frames are the generated frame runs (the reference's is its generated run with the result dropped); no
  operation was rewritten by the idealization, so that conjunct is `True`.
-/
import proofs.«110708_j83872121357101_1_alg».proof.Defs
import proofs.«110708_j83872121357101_1_alg».proof.Proof.Gen.Kernel
import proofs.«110708_j83872121357101_1_alg».proof.Proof.Gen.Kernel.Skeleton
import proofs.«110708_j83872121357101_1_alg».proof.Proof.Gen.Kernel.Launch
import proofs.«110708_j83872121357101_1_alg».proof.Proof.Gen.Kernel.Points
import proofs.«110708_j83872121357101_1_alg».proof.Proof.Gen.Kernel.Frame
import proofs.«110708_j83872121357101_1_alg».proof.Proof.Gen.KernelIdeal
import proofs.«110708_j83872121357101_1_alg».proof.Proof.Gen.KernelIdeal.Skeleton
import proofs.«110708_j83872121357101_1_alg».proof.Proof.Gen.KernelIdeal.Launch
import proofs.«110708_j83872121357101_1_alg».proof.Proof.Gen.KernelIdeal.Points
import proofs.«110708_j83872121357101_1_alg».proof.Proof.Gen.KernelIdeal.Frame
import proofs.«110708_j83872121357101_1_alg».proof.Proof.Gen.ReferenceIdeal
import proofs.«110708_j83872121357101_1_alg».proof.Proof.Gen.Pre_finite_inputs
import proofs.«110708_j83872121357101_1_alg».proof.Proof.Gen.ReferenceIdeal.Run
import proofs.«110708_j83872121357101_1_alg».proof.Proof.Gen.ReferenceIdeal.Read
import proofs.«110708_j83872121357101_1_alg».proof.Proof.Blocks
import proofs.«110708_j83872121357101_1_alg».proof.Proof.RefRow
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel [Cert.Kernel.Facts] [Cert.Pre_finite_inputs.Facts] : Cert.frame_Kernel :=
  fun m ρ _ => Cert.Kernel.Gen.frame m ρ

/-- So does its reading at the ideal values. -/
theorem frame_kernelIdeal [Cert.KernelIdeal.Facts] [Cert.Pre_finite_inputs.Facts] : Cert.frame_KernelIdeal :=
  fun m ρ _ => Cert.KernelIdeal.Gen.frame m ρ

/-- The reference runs and leaves its arguments as they were: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the five arguments both programs end with the row specification's array of those
    arguments: the kernel's run re-posted over its blocks, the reference's run read stage by stage. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.MemoryGate.Blocks.spec m c, Cert.MemoryGate.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.MemoryGate.Reference.reference_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
